-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S1x128 : Shape := ⟨2, ![1, 128]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x256, .f32⟩
  | .hbm, ⟨41, _⟩ => ⟨S128x256, .f32⟩
  | .hbm, ⟨42, _⟩ => ⟨S1x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S50000x1, .f32⟩
  | .hbm, ⟨58, _⟩ => ⟨S50000x256, .f32⟩
  | .hbm, ⟨59, _⟩ => ⟨S50000x256, .f32⟩
  | .hbm, ⟨60, _⟩ => ⟨S256x128, .f32⟩
  | .hbm, ⟨61, _⟩ => ⟨S256x128, .f32⟩
  | .hbm, ⟨62, _⟩ => ⟨S1x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x128, .f32⟩
  | .local _ .vmem, ⟨14, _⟩ => ⟨S1x128, .f32⟩
  | .local _ .vmem, ⟨15, _⟩ => ⟨S256x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  shapeCasts_S128_S1x128 : S128.ShapeCasts S1x128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S256x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result named.

  The program is four stretches: host operations, a pipelined region, host operations, a second pipelined region.
  The buffer contents at each boundary are a fold through the program: the host operations' results over the contents
  before them, and a region's arrays at what its write-backs leave.  Every weakly fair execution from the launch memory
  terminates without a fault, and every buffer that outlives the regions ends at the last boundary's contents.  Read at
  the argument arrays that gives the launch contents back; read at the result array it gives the fold's value there,
  which is what this module adds to the frame: the result buffer after the run holds the last boundary's contents.
-/
import proofs.«176847_j47330539602644_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the contents the fold gives it
    after the second region, and the argument arrays as launched. -/
theorem run_out : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«176847_j47330539602644_1_alg».proof.Proof.LibDense
import proofs.«176847_j47330539602644_1_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«176847_j47330539602644_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibSageLayer.lean ====
/-
  Two mean-aggregating graph layers and a linear head, on the extended reals, at any extents.

  A layer takes, for every node (a row), the sum `a` of its in-neighbours' feature rows, the node's own feature row
  `x`, and a per-node factor `s` (the reciprocal of the in-degree, at least one).  Its pre-activation is
  `(a scaled row by row by s) · wl + x · wr`; the hidden layer adds a one-row bias and rectifies, the output layer adds
  its bias, multiplies by the head's weights and adds the head's bias.  Every entry of a layer's result depends on the
  node's own rows of `a`, `x` and `s` only, which is what lets a block of rows be computed from a block of rows.

  The reference divides the aggregate by the degree where the kernel multiplies by its reciprocal: on the extended reals
  `a / c = a · c⁻¹` and `1 / c = c⁻¹` whenever `c ≠ 0`, and a degree clamped below by one is never zero, so the two
  agree at every extended real `a`, infinite ones included.
-/
import proofs.«176847_j47330539602644_1_alg».proof.Proof.LibRowScale
import proofs.«176847_j47330539602644_1_alg».proof.Proof.LibBiasRow
import Idealize.ShloMosaic.Lib.IdealHost

noncomputable section

open scoped BigOperators

namespace Cert.Sage

open Idealize.ShloMosaic Idealize.ShloMosaic.ValueIdx Cert.Dense Cert.RowScale Cert.BiasRow

/-- The pre-activation: the row-scaled aggregate times `wl` plus the self term times `wr`. -/
def pre {M K N : ℕ} (a x : Mat M K) (s : Mat M 1) (wl wr : Mat K N) : Mat M N :=
  fun i => mm (scaleRows a s) wl i + mm x wr i

/-- The hidden layer: the pre-activation plus a one-row bias, rectified. -/
def hidden {M K N : ℕ} (a x : Mat M K) (s : Mat M 1) (wl wr : Mat K N) (b : Mat 1 N) : Mat M N :=
  reluBias (pre a x s wl wr) b

/-- The output layer followed by the linear head. -/
def head {M K N P : ℕ} (a h : Mat M K) (s : Mat M 1) (wl wr : Mat K N) (b : Mat 1 N) (wfc : Mat N P) (bfc : Mat 1 P) :
    Mat M P :=
  addRow (mm (addRow (pre a h s wl wr) b) wfc) bfc

/-- A row of the pre-activation depends on the same row of the aggregate, of the features and of the factor. -/
theorem pre_rows {M M' K N : ℕ} (a x : Mat M K) (s : Mat M 1) (a' x' : Mat M' K) (s' : Mat M' 1) (wl wr : Mat K N)
    (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    pre a' x' s' wl wr (ix2 p' q) = pre a x s wl wr (ix2 p q) := by
  show mm (scaleRows a' s') wl (ix2 p' q) + mm x' wr (ix2 p' q) = mm (scaleRows a s) wl (ix2 p q) + mm x wr (ix2 p q)
  simp only [mm_apply, scaleRows_apply, ha, hx, hs]

theorem hidden_rows {M M' K N : ℕ} (a x : Mat M K) (s : Mat M 1) (a' x' : Mat M' K) (s' : Mat M' 1) (wl wr : Mat K N)
    (b : Mat 1 N) (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    hidden a' x' s' wl wr b (ix2 p' q) = hidden a x s wl wr b (ix2 p q) := by
  show max (pre a' x' s' wl wr (ix2 p' q) + b (ix2 (0 : Fin 1) q)) 0 = max (pre a x s wl wr (ix2 p q) + b (ix2 (0 : Fin 1) q)) 0
  rw [pre_rows a x s a' x' s' wl wr p' p q ha hx hs]

theorem head_rows {M M' K N P : ℕ} (a h : Mat M K) (s : Mat M 1) (a' h' : Mat M' K) (s' : Mat M' 1) (wl wr : Mat K N)
    (b : Mat 1 N) (wfc : Mat N P) (bfc : Mat 1 P) (p' : Fin M') (p : Fin M) (r : Fin P)
    (ha : ∀ k : Fin K, a' (ix2 p' k) = a (ix2 p k)) (hh : ∀ k : Fin K, h' (ix2 p' k) = h (ix2 p k))
    (hs : s' (ix2 p' (0 : Fin 1)) = s (ix2 p (0 : Fin 1))) :
    head a' h' s' wl wr b wfc bfc (ix2 p' r) = head a h s wl wr b wfc bfc (ix2 p r) := by
  show mm (addRow (pre a' h' s' wl wr) b) wfc (ix2 p' r) + bfc (ix2 (0 : Fin 1) r)
    = mm (addRow (pre a h s wl wr) b) wfc (ix2 p r) + bfc (ix2 (0 : Fin 1) r)
  rw [mm_apply, mm_apply]
  refine congrArg (· + bfc (ix2 (0 : Fin 1) r)) (Finset.sum_congr rfl fun k _ => ?_)
  rw [addRow_apply, addRow_apply, pre_rows a h s a' h' s' wl wr p' p k ha hh hs]

/-- Multiplying by the reciprocal is dividing, at a divisor that is not zero. -/
theorem mul_recip (a c : EReal) (hc : c ≠ 0) : a * Ideal.div 1 c = Ideal.div a c := by
  rw [Ideal.div, Ideal.div, if_neg hc, if_neg hc, one_mul]

/-- A quantity clamped below by one is not zero. -/
theorem max_one_ne_zero (x : EReal) : max x 1 ≠ 0 :=
  (lt_of_lt_of_le zero_lt_one (le_max_right x 1)).ne'

/-- The host's form of the mean: the aggregate divided by the degree vector broadcast to a column and along the rows is
    the aggregate's rows scaled by the column of reciprocals, when no degree is zero. -/
theorem hostDivRows {M N : ℕ} (G : FVec Ideal ⟨2, ![M, N]⟩ .f32) (d one : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hd : ∀ i, d i ≠ 0) (hone : ∀ i, one i = 1) :
    Host.divf (F := Ideal) G (broadcastInDim ⟨2, ![M, N]⟩ ![0, 1] h2 (broadcastInDim ⟨2, ![M, 1]⟩ ![0] h1 d))
      = scaleRows G (col (Host.divf (F := Ideal) one d)) := by
  funext i
  obtain ⟨p, q, rfl⟩ : ∃ (p : Fin M) (q : Fin N), i = ix2 p q := ⟨i 0, i 1, eq_ix2 i⟩
  show Ideal.div (G (ix2 p q)) (broadcastInDim ⟨2, ![M, N]⟩ ![0, 1] h2 (broadcastInDim ⟨2, ![M, 1]⟩ ![0] h1 d) (ix2 p q))
    = G (ix2 p q) * Ideal.div (one (ix1 p)) (d (ix1 p))
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 d (ix2 p (0 : Fin 1)) (ix1 p) (fun a => by
        match a with
        | ⟨0, _⟩ =>
          show p.val = if M = 1 then 0 else p.val
          split
          · have := p.isLt; omega
          · rfl),
    hone, mul_recip _ _ (hd _)]

end Cert.Sage

end
-- ==== Proof.LibSageDense.lean ====
/-
  One dense step of a mean-aggregating graph layer, on the extended reals, at any extents.

  The step takes the mean `A` of the neighbours' rows, the nodes' own rows `X`, two weight matrices and a one-row bias,
  and forms `A · wl + X · wr + b` (`lin`), or that rectified (`hid`).  The kernel spells it on the matrix unit — both
  products into zero accumulators, summed, then the bias row broadcast along the rows and added — and the host spells it
  with the bias added BEFORE the second product: `(A · wl + b) + X · wr`.  Addition of extended reals is commutative and
  associative, so the two agree at every entry, infinite ones included.  An entry `(p, q)` of the result depends on row
  `p` of `A` and of `X`, on column `q` of the weights and on entry `q` of the bias only, which is what lets a block of rows
  be computed from a block of rows.

  The mean: the kernel multiplies the summed rows by the reciprocal of the clamped degree, the host divides by the clamped
  degree.  A degree clamped below by one is never zero, and off zero a quotient is the product with the inverse, so both
  are the rows scaled by the column of reciprocals.
-/
import proofs.«176847_j47330539602644_1_alg».proof.Proof.LibSageLayer

noncomputable section

open scoped BigOperators

namespace Cert.SageDense

open Idealize.ShloMosaic Idealize.ShloMosaic.ValueIdx Cert.Dense Cert.RowScale Cert.BiasRow

/-- The two products summed: `A · wl + X · wr`. -/
def comb {M K N : ℕ} (A X : Mat M K) (wl wr : Mat K N) : Mat M N := fun i => mm A wl i + mm X wr i

/-- The output step: the two products plus a one-row bias. -/
def lin {M K N : ℕ} (A X : Mat M K) (wl wr : Mat K N) (b : Mat 1 N) : Mat M N := addRow (comb A X wl wr) b

/-- The hidden step: the same, rectified. -/
def hid {M K N : ℕ} (A X : Mat M K) (wl wr : Mat K N) (b : Mat 1 N) : Mat M N := reluBias (comb A X wl wr) b

/-- An entry of the summed products depends on one row of each left operand and one column of each weight matrix. -/
theorem comb_at {M M' K N N' : ℕ} (A X : Mat M K) (wl wr : Mat K N) (A' X' : Mat M' K) (wl' wr' : Mat K N')
    (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i))) :
    comb A' X' wl' wr' j = comb A X wl wr i := by
  unfold comb
  rw [Cert.BiasRow.mm_at A wl A' wl' j i hA hl, Cert.BiasRow.mm_at X wr X' wr' j i hX hr]

theorem lin_at {M M' K N N' : ℕ} (A X : Mat M K) (wl wr : Mat K N) (b : Mat 1 N) (A' X' : Mat M' K) (wl' wr' : Mat K N')
    (b' : Mat 1 N') (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i)))
    (hb : b' (ix2 (0 : Fin 1) (c1 j)) = b (ix2 (0 : Fin 1) (c1 i))) :
    lin A' X' wl' wr' b' j = lin A X wl wr b i :=
  Cert.BiasRow.addRow_at _ b _ b' j i (comb_at A X wl wr A' X' wl' wr' j i hA hX hl hr) hb

theorem hid_at {M M' K N N' : ℕ} (A X : Mat M K) (wl wr : Mat K N) (b : Mat 1 N) (A' X' : Mat M' K) (wl' wr' : Mat K N')
    (b' : Mat 1 N') (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i)))
    (hb : b' (ix2 (0 : Fin 1) (c1 j)) = b (ix2 (0 : Fin 1) (c1 i))) :
    hid A' X' wl' wr' b' j = hid A X wl wr b i :=
  Cert.BiasRow.reluBias_at _ b _ b' j i (comb_at A X wl wr A' X' wl' wr' j i hA hX hl hr) hb

/-! ## The matrix unit's spelling -/

/-- Both products on the matrix unit into zero accumulators, summed; the operands' change of float format is the
    identity on the extended reals. -/
theorem vecComb {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (lt : FTy.bf16.bits < FTy.f32.bits) :
    addf (matmul (F := Ideal) D none (truncf .bf16 A lt) (truncf .bf16 wl lt) (constant ⟨2, ![M, N]⟩ .f32 0x00000000#32))
        (matmul (F := Ideal) D none (truncf .bf16 X lt) (truncf .bf16 wr lt) (constant ⟨2, ![M, N]⟩ .f32 0x00000000#32))
      = comb A X wl wr := by
  rw [matmul_zero_eq_mm D h1 h2 h3 h4 h5 h6, matmul_zero_eq_mm D h1 h2 h3 h4 h5 h6]
  rfl

theorem vecLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨2, ![1, N]⟩ .f32)
    (lt : FTy.bf16.bits < FTy.f32.bits) (hb : (⟨2, ![1, N]⟩ : Shape).Broadcasts ⟨2, ![M, N]⟩) :
    addf (addf (matmul (F := Ideal) D none (truncf .bf16 A lt) (truncf .bf16 wl lt) (constant ⟨2, ![M, N]⟩ .f32 0x00000000#32))
          (matmul (F := Ideal) D none (truncf .bf16 X lt) (truncf .bf16 wr lt) (constant ⟨2, ![M, N]⟩ .f32 0x00000000#32)))
        (broadcastTo ⟨2, ![M, N]⟩ b hb)
      = lin A X wl wr b := by
  rw [vecComb D h1 h2 h3 h4 h5 h6 A X wl wr lt]
  exact vecAddRow (comb A X wl wr) b hb

theorem vecHid {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨2, ![1, N]⟩ .f32)
    (lt : FTy.bf16.bits < FTy.f32.bits) (hb : (⟨2, ![1, N]⟩ : Shape).Broadcasts ⟨2, ![M, N]⟩) :
    maximumf (addf (addf (matmul (F := Ideal) D none (truncf .bf16 A lt) (truncf .bf16 wl lt) (constant ⟨2, ![M, N]⟩ .f32 0x00000000#32))
          (matmul (F := Ideal) D none (truncf .bf16 X lt) (truncf .bf16 wr lt) (constant ⟨2, ![M, N]⟩ .f32 0x00000000#32)))
        (broadcastTo ⟨2, ![M, N]⟩ b hb)) (broadcast ⟨2, ![M, N]⟩ (Scalar.ofBits (F := Ideal) .f32 0x00000000#32))
      = hid A X wl wr b := by
  rw [vecComb D h1 h2 h3 h4 h5 h6 A X wl wr lt]
  exact vecReluBias (comb A X wl wr) b hb

/-! ## The host's spelling -/

/-- The host adds the bias before the second product; the sum is the same. -/
theorem hostLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) :
    addf (addf (Host.dotGeneral (F := Ideal) D none A wl)
          (broadcastInDim ⟨2, ![M, N]⟩ ![0, 1] hb2 (broadcastInDim ⟨2, ![1, N]⟩ ![1] hb1 b)))
        (Host.dotGeneral (F := Ideal) D none X wr)
      = lin A X wl wr (row b) := by
  rw [hostDot_eq_mm D h1 h2 h3 h4 h5 h6 none A wl, hostDot_eq_mm D h1 h2 h3 h4 h5 h6 none X wr,
    hostAddRow (mm A wl) b hb1 hb2]
  funext i
  show (mm A wl i + row b (ix2 (0 : Fin 1) (c1 i))) + mm X wr i = (mm A wl i + mm X wr i) + row b (ix2 (0 : Fin 1) (c1 i))
  exact add_right_comm _ _ _

/-- The maximum with a scalar zero broadcast everywhere is the maximum with zero at every entry. -/
theorem hostRelu {s : Shape} (Y : FVec Ideal s .f32) (h0 : (⟨0, ![]⟩ : Shape).BroadcastsInDim s ![]) :
    maximumf Y (broadcastInDim s ![] h0 (constant (F := Ideal) ⟨0, ![]⟩ .f32 0x00000000#32)) = fun i => max (Y i) 0 := by
  funext i
  show max (Y i) (broadcastInDim s ![] h0 (constant (F := Ideal) ⟨0, ![]⟩ .f32 0x00000000#32) i) = _
  rw [broadcastInDim_apply ![] h0 _ i ix0 (fun a => a.elim0)]
  show max (Y i) (Ideal.ofBits .f32 0x00000000#32) = _
  rw [Ideal.ofBits_zero_f32]

theorem hostHid {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (F := Ideal) D none A wl)
          (broadcastInDim ⟨2, ![M, N]⟩ ![0, 1] hb2 (broadcastInDim ⟨2, ![1, N]⟩ ![1] hb1 b)))
        (Host.dotGeneral (F := Ideal) D none X wr))
        (broadcastInDim ⟨2, ![M, N]⟩ ![] h0 (constant (F := Ideal) ⟨0, ![]⟩ .f32 0x00000000#32))
      = hid A X wl wr (row b) := by
  rw [hostLin D h1 h2 h3 h4 h5 h6 A X wl wr b hb1 hb2, hostRelu]
  rfl

/-! ## The mean -/

/-- The rows of `G` scaled by the reciprocals of the clamped degrees. -/
def meanRows {M N : ℕ} (G : FVec Ideal ⟨2, ![M, N]⟩ .f32) (one d : FVec Ideal ⟨1, ![M]⟩ .f32) : Mat M N :=
  scaleRows G (col (Host.divf (F := Ideal) one (maximumf (F := Ideal) d one)))

/-- The kernel's form: the summed rows times the reciprocal of the clamped degree, broadcast to a column and along
    the rows. -/
theorem mulMean {M N : ℕ} (G : FVec Ideal ⟨2, ![M, N]⟩ .f32) (one d : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1
        (Host.divf (F := Ideal) one (maximumf (F := Ideal) d one))))
      = meanRows G one d :=
  hostScaleRows G _ h1 h2

/-- The host's form: the summed rows divided by the clamped degree, when the clamp is at one. -/
theorem divMean {M N : ℕ} (G : FVec Ideal ⟨2, ![M, N]⟩ .f32) (one d : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hone : ∀ i, one i = 1) :
    Host.divf (F := Ideal) G (broadcastInDim ⟨2, ![M, N]⟩ ![0, 1] h2 (broadcastInDim ⟨2, ![M, 1]⟩ ![0] h1
        (maximumf (F := Ideal) d one)))
      = meanRows G one d :=
  Cert.Sage.hostDivRows G (maximumf (F := Ideal) d one) one h1 h2
    (fun i => by
      show max (d i) (one i) ≠ 0
      rw [hone i]
      exact Cert.Sage.max_one_ne_zero (d i))
    hone

/-- A scalar one broadcast to a vector is one at every entry. -/
theorem bcastOne {s : Shape} (h0 : (⟨0, ![]⟩ : Shape).BroadcastsInDim s ![]) (i : s.Idx) :
    broadcastInDim s ![] h0 (constant (F := Ideal) ⟨0, ![]⟩ .f32 0x3F800000#32) i = 1 := by
  rw [broadcastInDim_apply ![] h0 _ i ix0 (fun a => a.elim0)]
  show Ideal.ofBits .f32 0x3F800000#32 = 1
  exact Ideal.ofBits_one_f32

end Cert.SageDense

end
-- ==== Proof.Hidden.lean ====
/-
  The first region: the hidden layer, block of rows by block of rows.

  The region runs over ten grid points.  Point `t` stages rows `5000 t … 5000 t + 4999` of the neighbour mean and of the
  node features, the two whole weight matrices and the whole bias row, and writes back the same rows of the result:
  the rectified sum of the two products and the bias.  An entry of that sum depends on its own row of the two left
  operands only, so what point `t` writes back is its block of ONE whole-array function of the arrays as the region
  finds them; the ten blocks tile the result array, which therefore ends holding that function.
-/
import proofs.«176847_j47330539602644_1_alg».proof.Proof.Gen.KernelIdeal.Frame
import proofs.«176847_j47330539602644_1_alg».proof.Proof.LibSageDense
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hidden

open Cert.KernelIdeal Cert.KernelIdeal.Gen Cert.Dense Cert.SageDense

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the hidden step of its five loaded blocks. -/
theorem pay_eq (a x : FVec Ideal S5000x128 .f32) (wl wr : FVec Ideal S128x256 .f32) (b : FVec Ideal S1x256 .f32) :
    k0_pay1 (F := Ideal) a x wl wr b = hid a x wl wr b := by
  unfold k0_pay1
  simp only [shapeCast_self]
  exact vecHid _ rfl rfl rfl rfl rfl rfl a x wl wr b _ _

/-- The printed index maps over the grid: the two row-blocked inputs move with the output along the rows, every other
    block index is zero. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every block of rows is some point's. -/
theorem idx_onto : ∀ q : Fin 10, ∃ t : Fin cfg0.N, win0_5.index t = ![q.val, 0] :=
  (by decide +kernel : ∀ q : Fin 10, ∃ t : Fin grid0.N, win0_5.index t = ![q.val, 0])

/-- Block `t` of the neighbour mean is its rows from `5000 ·` the block index on. -/
theorem blk_mean (c : Dev nD) (t : Fin cfg0.N) (y : S5000x128.Idx) (k : S50000x128.Idx)
    (h0 : (k 0).val = win0_5.index t (0 : Fin 2) * 5000 + (y 0).val) (h1 : (k 1).val = (y 1).val) :
    (iblk0 V c 0 t : FVec Ideal S5000x128 .f32) y = (V c main_v24 : S50000x128.Idx → EReal) k := by
  obtain ⟨e0, e1, -⟩ := idx_facts t
  unfold iblk0
  rw [View.read_apply]
  show V c main_v24 _ = V c main_v24 _
  refine congrArg (V c main_v24) (funext fun a => Fin.ext ?_)
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- Block `t` of the node features, likewise. -/
theorem blk_feat (c : Dev nD) (t : Fin cfg0.N) (y : S5000x128.Idx) (k : S50000x128.Idx)
    (h0 : (k 0).val = win0_5.index t (0 : Fin 2) * 5000 + (y 0).val) (h1 : (k 1).val = (y 1).val) :
    (iblk0 V c 1 t : FVec Ideal S5000x128 .f32) y = (V c main_arg0 : S50000x128.Idx → EReal) k := by
  obtain ⟨-, -, e0, e1, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * (y 0).val = (k 0).val; omega
  | ⟨1, _⟩ => show win0_1.index t (1 : Fin 2) * 128 + 1 * (y 1).val = (k 1).val; omega

/-- The weight and bias windows stage their whole arrays at every point. -/
theorem blk_wl (c : Dev nD) (t : Fin cfg0.N) (y : S128x256.Idx) :
    (iblk0 V c 2 t : FVec Ideal S128x256 .f32) y = (V c main_v25 : S128x256.Idx → EReal) y := by
  obtain ⟨-, -, -, -, e0, e1, -⟩ := idx_facts t
  unfold iblk0
  rw [View.read_apply]
  show V c main_v25 _ = V c main_v25 _
  refine congrArg (V c main_v25) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem blk_bias (c : Dev nD) (t : Fin cfg0.N) (y : S1x256.Idx) :
    (iblk0 V c 3 t : FVec Ideal S1x256 .f32) y = (V c main_v27 : S1x256.Idx → EReal) y := by
  obtain ⟨-, -, -, -, -, -, e0, e1, -⟩ := idx_facts t
  unfold iblk0
  rw [View.read_apply]
  show V c main_v27 _ = V c main_v27 _
  refine congrArg (V c main_v27) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem blk_wr (c : Dev nD) (t : Fin cfg0.N) (y : S128x256.Idx) :
    (iblk0 V c 4 t : FVec Ideal S128x256 .f32) y = (V c main_v26 : S128x256.Idx → EReal) y := by
  obtain ⟨-, -, -, -, -, -, -, -, e0, e1, -⟩ := idx_facts t
  unfold iblk0
  rw [View.read_apply]
  show V c main_v26 _ = V c main_v26 _
  refine congrArg (V c main_v26) (funext fun a => Fin.ext ?_)
  match a with
  | ⟨0, _⟩ => show win0_4.index t (0 : Fin 2) * 128 + 1 * (y 0).val = (y 0).val; omega
  | ⟨1, _⟩ => show win0_4.index t (1 : Fin 2) * 256 + 1 * (y 1).val = (y 1).val; omega

/-- The hidden layer of the arrays as the region finds them. -/
abbrev G (c : Dev nD) : S50000x256.Idx → EReal :=
  hid (V c main_v24 : S50000x128.Idx → EReal) (V c main_arg0 : S50000x128.Idx → EReal)
    (V c main_v25 : S128x256.Idx → EReal) (V c main_v26 : S128x256.Idx → EReal) (V c main_v27 : S1x256.Idx → EReal)

/-- What point `t` writes back is block `t` of the hidden layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x256) hz, View.ld_unit_zero (S := S1x256) hz]
  rw [pay_eq]
  obtain ⟨-, -, -, -, -, -, -, -, -, -, e1, -⟩ := idx_facts t
  funext j
  show hid (iblk0 V c 0 t : FVec Ideal S5000x128 .f32) (iblk0 V c 1 t : FVec Ideal S5000x128 .f32)
      (iblk0 V c 2 t : FVec Ideal S128x256 .f32) (iblk0 V c 4 t : FVec Ideal S128x256 .f32)
      (iblk0 V c 3 t : FVec Ideal S1x256 .f32) j = G V c (((cfg0.win 5).blk t).view.emb j)
  have hr : ((((cfg0.win 5).blk t).view.emb j) 0).val = win0_5.index t (0 : Fin 2) * 5000 + (j 0).val := by
    show win0_5.index t (0 : Fin 2) * 5000 + 1 * (j 0).val = _; omega
  have hc : ((((cfg0.win 5).blk t).view.emb j) 1).val = (j 1).val := by
    show win0_5.index t (1 : Fin 2) * 256 + 1 * (j 1).val = _; omega
  refine hid_at _ _ _ _ _ _ _ _ _ _ j (((cfg0.win 5).blk t).view.emb j) (fun k => ?_) (fun k => ?_) (fun k => ?_) (fun k => ?_) ?_
  · exact blk_mean V c t _ _ hr rfl
  · exact blk_feat V c t _ _ hr rfl
  · rw [blk_wl V c t]; exact congrArg _ (funext fun a => Fin.ext (by match a with | ⟨0, _⟩ => rfl | ⟨1, _⟩ => exact hc.symm))
  · rw [blk_wr V c t]; exact congrArg _ (funext fun a => Fin.ext (by match a with | ⟨0, _⟩ => rfl | ⟨1, _⟩ => exact hc.symm))
  · rw [blk_bias V c t]; exact congrArg _ (funext fun a => Fin.ext (by match a with | ⟨0, _⟩ => rfl | ⟨1, _⟩ => exact hc.symm))

/-- An index of the result array is in point `t`'s block iff each coordinate is in the block's range on its axis. -/
theorem mem_blk (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v28).slice (win0_5.rect t)).set ↔ _
  rw [View.set_slice_whole, Rect.mem_set_unit]
  exact Iff.rfl

/-- The ten blocks of rows cover the result array. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 256 ≤ (i 1).val ∧ (i 1).val < win0_5.index t (1 : Fin 2) * 256 + 256; omega

/-- The result array after the region is the hidden layer of the arrays as the region finds them. -/
theorem final (c : Dev nD) : (dat0 V c).arrAt 5 cfg0.N = G V c :=
  (dat0 V c).arrAt_eq_of_cover 5 (G V c) (fun t _ => flushed_eq V c t) (cover)

end Cert.KernelIdeal.Hidden

end
-- ==== Proof.Output.lean ====
/-
  The second region: the output layer, block of rows by block of rows.

  The region runs over ten grid points.  Point `t` stages rows `5000 t … 5000 t + 4999` of the second neighbour mean and
  of the hidden layer, the two whole weight matrices and the whole bias row, and writes back the same rows of the
  result: the sum of the two products and the bias.  An entry of that sum depends on its own row of the two left operands
  only, so what point `t` writes back is its block of ONE whole-array function of the arrays as the region finds them;
  the ten blocks tile the result array, which therefore ends holding that function.
-/
import proofs.«176847_j47330539602644_1_alg».proof.Proof.Gen.KernelIdeal.Frame
import proofs.«176847_j47330539602644_1_alg».proof.Proof.LibSageDense
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.Dense Cert.SageDense

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the output step of its five loaded blocks. -/
theorem pay_eq (a x : FVec Ideal S5000x256 .f32) (wl wr : FVec Ideal S256x128 .f32) (b : FVec Ideal S1x128 .f32) :
    k1_pay1 (F := Ideal) a x wl wr b = lin a x wl wr b := by
  unfold k1_pay1
  simp only [shapeCast_self]
  exact vecLin _ rfl rfl rfl rfl rfl rfl a x wl wr b _ _

/-- The printed index maps over the grid: the two row-blocked inputs move with the output along the rows, every other
    block index is zero. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every block of rows is some point's. -/
theorem idx_onto : ∀ q : Fin 10, ∃ t : Fin cfg1.N, win1_5.index t = ![q.val, 0] :=
  (by decide +kernel : ∀ q : Fin 10, ∃ t : Fin grid1.N, win1_5.index t = ![q.val, 0])

/-- Block `t` of the neighbour mean is its rows from `5000 ·` the block index on. -/
theorem blk_mean (c : Dev nD) (t : Fin cfg1.N) (y : S5000x256.Idx) (k : S50000x256.Idx)
    (h0 : (k 0).val = win1_5.index t (0 : Fin 2) * 5000 + (y 0).val) (h1 : (k 1).val = (y 1).val) :
    (iblk1 V c 0 t : FVec Ideal S5000x256 .f32) y = (V c main_v41 : S50000x256.Idx → EReal) k := by
  obtain ⟨e0, e1, -⟩ := idx_facts t
  unfold iblk1
  rw [View.read_apply]
  show V c main_v41 _ = V c main_v41 _
  refine congrArg (V c main_v41) (funext fun a => Fin.ext ?_)
  match a with
  | ⟨0, _⟩ => show win1_0.index t (0 : Fin 2) * 5000 + 1 * (y 0).val = (k 0).val; omega
  | ⟨1, _⟩ => show win1_0.index t (1 : Fin 2) * 256 + 1 * (y 1).val = (k 1).val; omega

/-- Block `t` of the hidden layer, likewise. -/
theorem blk_feat (c : Dev nD) (t : Fin cfg1.N) (y : S5000x256.Idx) (k : S50000x256.Idx)
    (h0 : (k 0).val = win1_5.index t (0 : Fin 2) * 5000 + (y 0).val) (h1 : (k 1).val = (y 1).val) :
    (iblk1 V c 1 t : FVec Ideal S5000x256 .f32) y = (V c main_v28 : S50000x256.Idx → EReal) k := by
  obtain ⟨-, -, e0, e1, -⟩ := idx_facts t
  unfold iblk1
  rw [View.read_apply]
  show V c main_v28 _ = V c main_v28 _
  refine congrArg (V c main_v28) (funext fun a => Fin.ext ?_)
  match a with
  | ⟨0, _⟩ => show win1_1.index t (0 : Fin 2) * 5000 + 1 * (y 0).val = (k 0).val; omega
  | ⟨1, _⟩ => show win1_1.index t (1 : Fin 2) * 256 + 1 * (y 1).val = (k 1).val; omega

/-- The weight and bias windows stage their whole arrays at every point. -/
theorem blk_wl (c : Dev nD) (t : Fin cfg1.N) (y : S256x128.Idx) :
    (iblk1 V c 2 t : FVec Ideal S256x128 .f32) y = (V c main_v42 : S256x128.Idx → EReal) y := by
  obtain ⟨-, -, -, -, e0, e1, -⟩ := idx_facts t
  unfold iblk1
  rw [View.read_apply]
  show V c main_v42 _ = V c main_v42 _
  refine congrArg (V c main_v42) (funext fun a => Fin.ext ?_)
  match a with
  | ⟨0, _⟩ => show win1_2.index t (0 : Fin 2) * 256 + 1 * (y 0).val = (y 0).val; omega
  | ⟨1, _⟩ => show win1_2.index t (1 : Fin 2) * 128 + 1 * (y 1).val = (y 1).val; omega

theorem blk_bias (c : Dev nD) (t : Fin cfg1.N) (y : S1x128.Idx) :
    (iblk1 V c 3 t : FVec Ideal S1x128 .f32) y = (V c main_v44 : S1x128.Idx → EReal) y := by
  obtain ⟨-, -, -, -, -, -, e0, e1, -⟩ := idx_facts t
  unfold iblk1
  rw [View.read_apply]
  show V c main_v44 _ = V c main_v44 _
  refine congrArg (V c main_v44) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem blk_wr (c : Dev nD) (t : Fin cfg1.N) (y : S256x128.Idx) :
    (iblk1 V c 4 t : FVec Ideal S256x128 .f32) y = (V c main_v43 : S256x128.Idx → EReal) y := by
  obtain ⟨-, -, -, -, -, -, -, -, e0, e1, -⟩ := idx_facts t
  unfold iblk1
  rw [View.read_apply]
  show V c main_v43 _ = V c main_v43 _
  refine congrArg (V c main_v43) (funext fun a => Fin.ext ?_)
  match a with
  | ⟨0, _⟩ => show win1_4.index t (0 : Fin 2) * 256 + 1 * (y 0).val = (y 0).val; omega
  | ⟨1, _⟩ => show win1_4.index t (1 : Fin 2) * 128 + 1 * (y 1).val = (y 1).val; omega

/-- The output layer of the arrays as the region finds them. -/
abbrev G (c : Dev nD) : S50000x128.Idx → EReal :=
  lin (V c main_v41 : S50000x256.Idx → EReal) (V c main_v28 : S50000x256.Idx → EReal)
    (V c main_v42 : S256x128.Idx → EReal) (V c main_v43 : S256x128.Idx → EReal) (V c main_v44 : S1x128.Idx → EReal)

/-- What point `t` writes back is block `t` of the output layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x256) hz, View.ld_unit_zero (S := S256x128) hz, View.ld_unit_zero (S := S1x128) hz]
  rw [pay_eq]
  obtain ⟨-, -, -, -, -, -, -, -, -, -, e1, -⟩ := idx_facts t
  funext j
  show lin (iblk1 V c 0 t : FVec Ideal S5000x256 .f32) (iblk1 V c 1 t : FVec Ideal S5000x256 .f32)
      (iblk1 V c 2 t : FVec Ideal S256x128 .f32) (iblk1 V c 4 t : FVec Ideal S256x128 .f32)
      (iblk1 V c 3 t : FVec Ideal S1x128 .f32) j = G V c (((cfg1.win 5).blk t).view.emb j)
  have hr : ((((cfg1.win 5).blk t).view.emb j) 0).val = win1_5.index t (0 : Fin 2) * 5000 + (j 0).val := by
    show win1_5.index t (0 : Fin 2) * 5000 + 1 * (j 0).val = _; omega
  have hc : ((((cfg1.win 5).blk t).view.emb j) 1).val = (j 1).val := by
    show win1_5.index t (1 : Fin 2) * 128 + 1 * (j 1).val = _; omega
  refine lin_at _ _ _ _ _ _ _ _ _ _ j (((cfg1.win 5).blk t).view.emb j) (fun k => ?_) (fun k => ?_) (fun k => ?_) (fun k => ?_) ?_
  · exact blk_mean V c t _ _ hr rfl
  · exact blk_feat V c t _ _ hr rfl
  · rw [blk_wl V c t]; exact congrArg _ (funext fun a => Fin.ext (by match a with | ⟨0, _⟩ => rfl | ⟨1, _⟩ => exact hc.symm))
  · rw [blk_wr V c t]; exact congrArg _ (funext fun a => Fin.ext (by match a with | ⟨0, _⟩ => rfl | ⟨1, _⟩ => exact hc.symm))
  · rw [blk_bias V c t]; exact congrArg _ (funext fun a => Fin.ext (by match a with | ⟨0, _⟩ => rfl | ⟨1, _⟩ => exact hc.symm))

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- The ten blocks of rows cover the result array. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the region is the output layer of the arrays as the region finds them. -/
theorem final (c : Dev nD) : (dat1 V c).arrAt 5 cfg1.N = G V c :=
  (dat1 V c).arrAt_eq_of_cover 5 (G V c) (fun t _ => flushed_eq V c t) (cover)

end Cert.KernelIdeal.Output

end
-- ==== Proof.Spec.lean ====
/-
  The two-layer network as one function of the eight argument arrays.

  Both programs gather the rows of a feature array by the source column, add them up by the target column, and count the
  in-degrees by a scatter of ones over the same target column.  Those values are written here with the reference's own
  stage functions.  On top of them: the mean is the summed rows scaled by the reciprocals of the degrees clamped at one
  (`meanRows`), the hidden layer is the rectified dense step of the first mean and the node features (`hidden`), and the
  output is the dense step of the second mean — the same aggregation applied to the hidden layer — and the hidden layer
  (`output`).
-/
import proofs.«176847_j47330539602644_1_alg».proof.Proof.Gen.ReferenceIdeal.Read
import proofs.«176847_j47330539602644_1_alg».proof.Proof.LibSageDense

noncomputable section

namespace Cert.SageSpec

open Cert.ReferenceIdeal Cert.ReferenceIdeal.Gen Cert.ReferenceIdeal.Read
open Idealize.ShloMosaic Cert.Dense Cert.SageDense

/-- A vector of ones, one per node. -/
abbrev ones : FVec Ideal S50000 .f32 := val_main_v18 (F := Ideal)

/-- The in-degree of every node: ones added up by the target column. -/
abbrev deg (x1 : (⟨S2x800000, .i32⟩ : BufTy).Contents (Elt Ideal)) : FVec Ideal S50000 .f32 := val_main_v17 (F := Ideal) x1

theorem ones_apply (i : S50000.Idx) : ones i = 1 := by
  show val_main_v18 (F := Ideal) i = 1
  unfold val_main_v18 val_main_cst_3
  exact bcastOne _ i

/-- The summed neighbour rows of a 256-wide feature array: a gather of its rows by the (wrapped) source column, then a
    scatter-add by the target column into zeros. -/
def agg256 (h : FVec Ideal S50000x256 .f32) (src dst : (⟨S800000, .i32⟩ : BufTy).Contents (Elt Ideal)) : FVec Ideal S50000x256 .f32 :=
  Host.scatterAdd scatter_S50000x256_S800000x1_S800000x256_1_0_0_1 (val_main_v39 (F := Ideal))
    (broadcastInDim S800000x1 ![0] bcast_S800000_S800000x1_0 dst)
    (Host.gather gather_S50000x256_S800000x1_S800000x256_1_0_n_n_0_1_1256 h
      (broadcastInDim S800000x1 ![0] bcast_S800000_S800000x1_0
        (select (cmpi .slt src (val_main_v32 (F := Ideal))) (addi src (val_main_v34 (F := Ideal))) src)))

/-- The reference's second aggregation is that function of its hidden layer and its index columns. -/
theorem ref_agg256 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) :
    val_main_v41 (F := Ideal) x0 x1 x2 x3 x4
      = agg256 (val_main_v31 (F := Ideal) x0 x1 x2 x3 x4) (val_main_v1 (F := Ideal) x1) (val_main_v3 (F := Ideal) x1) := by
  unfold val_main_v41 val_main_v40 val_main_v38 val_main_v37 val_main_v36 val_main_v35 val_main_v33 agg256
  rfl

/-- The hidden layer of the network. -/
def hidden (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) : Mat 50000 256 :=
  hid (meanRows (val_main_v13 (F := Ideal) x0 x1) ones (deg x1)) x0 (val_main_v23 (F := Ideal) x2) (val_main_v28 (F := Ideal) x4) (row x3)

/-- The network's output. -/
def output (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal))
    (x5 : (⟨S128x256, .f32⟩ : BufTy).Contents (Elt Ideal)) (x6 : (⟨S128, .f32⟩ : BufTy).Contents (Elt Ideal))
    (x7 : (⟨S128x256, .f32⟩ : BufTy).Contents (Elt Ideal)) : Mat 50000 128 :=
  lin (meanRows (agg256 (hidden x0 x1 x2 x3 x4) (val_main_v1 (F := Ideal) x1) (val_main_v3 (F := Ideal) x1)) ones (deg x1))
    (hidden x0 x1 x2 x3 x4) (val_main_v51 (F := Ideal) x5) (val_main_v56 (F := Ideal) x7) (row x6)

end Cert.SageSpec

end
-- ==== Proof.KernelHost.lean ====
/-
  The kernel program's host operations, read over an arbitrary starting valuation.

  Before the first region the host computes, from the edge list and the node features: the source and target columns,
  the in-degree of every node (a scatter of ones), its reciprocal after a clamp at one, the summed neighbour rows (a
  gather by source followed by a scatter-add by target), the mean as that sum times the reciprocal, and the transposed
  weights and the bias as a row.  Between the regions it does the same aggregation on the first region's result.  Both
  programs of the claim build the index columns, the degree vector and the summed rows by the same operations, so those
  values are stated here in the reference's own stage functions; what differs — the product with a reciprocal in place of
  a quotient — is left visible.
-/
import proofs.«176847_j47330539602644_1_alg».proof.Proof.Gen.KernelIdeal.Launch
import proofs.«176847_j47330539602644_1_alg».proof.Proof.Spec
import Idealize.ShloMosaic.Lib.StableHlo.Run

noncomputable section

namespace Cert.KernelIdeal.HostRead

open Cert.KernelIdeal Cert.KernelIdeal.Gen
open Idealize.ShloMosaic Idealize.ShloMosaic.TcCoe Idealize.SL.Sem Idealize.ShloMosaic.StableHlo
open Cert.ReferenceIdeal.Read Cert.SageSpec

variable (W : Valuation τ sig (Elt Ideal))

/-! ## Before the first region -/

theorem pre_src : after hostOps0 W (Proc.devRef .tc main_v1) = val_main_v1 (F := Ideal) (W (Proc.devRef .tc main_arg1)) := by
  simp only [hostOps0]; after_results_simp <;> (simp only [val_main_v1, val_main_v0] <;> rfl)

theorem pre_dst : after hostOps0 W (Proc.devRef .tc main_v3) = val_main_v3 (F := Ideal) (W (Proc.devRef .tc main_arg1)) := by
  simp only [hostOps0]; after_results_simp <;> (simp only [val_main_v3, val_main_v2] <;> rfl)

/-- The reciprocal of the clamped degree. -/
theorem pre_recip : after hostOps0 W (Proc.devRef .tc main_v11)
    = Host.divf (F := Ideal) ones (maximumf (F := Ideal) (deg (W (Proc.devRef .tc main_arg1))) ones) := by
  simp only [hostOps0]; after_results_simp <;>
    (simp only [ones, deg, val_main_v18, val_main_cst_3, val_main_v17, val_main_v16, val_main_v15, val_main_v14, val_main_cst_1,
      val_main_cst_2, val_main_v3, val_main_v2] <;> rfl)

/-- The first mean: the summed neighbour rows times the reciprocal, broadcast to a column and along the rows. -/
theorem pre_mean : after hostOps0 W (Proc.devRef .tc main_v24)
    = mulf (F := Ideal) (val_main_v13 (F := Ideal) (W (Proc.devRef .tc main_arg0)) (W (Proc.devRef .tc main_arg1)))
        (broadcastInDim S50000x128 ![0, 1] bcast_S50000x1_S50000x128_0_1 (broadcastInDim S50000x1 ![0] bcast_S50000_S50000x1_0
          (Host.divf (F := Ideal) ones (maximumf (F := Ideal) (deg (W (Proc.devRef .tc main_arg1))) ones)))) := by
  simp only [hostOps0]; after_results_simp <;>
    (simp only [ones, deg, val_main_v18, val_main_cst_3, val_main_v17, val_main_v16, val_main_v15, val_main_v14, val_main_cst_1,
      val_main_cst_2, val_main_v13, val_main_v12, val_main_v11, val_main_v10, val_main_v9, val_main_v8, val_main_v7, val_main_v6,
      val_main_v5, val_main_v4, val_main_c, val_main_c_0, val_main_cst, val_main_v1, val_main_v0, val_main_v3, val_main_v2] <;> rfl)

theorem pre_wl : after hostOps0 W (Proc.devRef .tc main_v25) = val_main_v23 (F := Ideal) (W (Proc.devRef .tc main_arg2)) := by
  simp only [hostOps0]; after_results_simp <;> (simp only [val_main_v23] <;> rfl)

theorem pre_wr : after hostOps0 W (Proc.devRef .tc main_v26) = val_main_v28 (F := Ideal) (W (Proc.devRef .tc main_arg4)) := by
  simp only [hostOps0]; after_results_simp <;> (simp only [val_main_v28] <;> rfl)

theorem pre_bias : after hostOps0 W (Proc.devRef .tc main_v27) = shapeCast S1x256 (W (Proc.devRef .tc main_arg3)) shapeCasts_S256_S1x256 := by
  simp only [hostOps0]; after_results_simp <;> rfl

theorem pre_feat : after hostOps0 W (Proc.devRef .tc main_arg0) = W (Proc.devRef .tc main_arg0) := by
  simp only [hostOps0]; after_results_simp <;> rfl

theorem pre_arg5 : after hostOps0 W (Proc.devRef .tc main_arg5) = W (Proc.devRef .tc main_arg5) := by
  simp only [hostOps0]; after_results_simp <;> rfl

theorem pre_arg6 : after hostOps0 W (Proc.devRef .tc main_arg6) = W (Proc.devRef .tc main_arg6) := by
  simp only [hostOps0]; after_results_simp <;> rfl

theorem pre_arg7 : after hostOps0 W (Proc.devRef .tc main_arg7) = W (Proc.devRef .tc main_arg7) := by
  simp only [hostOps0]; after_results_simp <;> rfl

/-! ## Between the regions -/

/-- The second mean, from the first region's result and the columns and reciprocal computed before it. -/
theorem mid_mean : after hostOps1 W (Proc.devRef .tc main_v41)
    = mulf (F := Ideal) (agg256 (W (Proc.devRef .tc main_v28)) (W (Proc.devRef .tc main_v1)) (W (Proc.devRef .tc main_v3)))
        (broadcastInDim S50000x256 ![0, 1] bcast_S50000x1_S50000x256_0_1 (broadcastInDim S50000x1 ![0] bcast_S50000_S50000x1_0
          (W (Proc.devRef .tc main_v11)))) := by
  simp only [hostOps1]; after_results_simp <;>
    (simp only [agg256, val_main_v39, val_main_cst_6, val_main_v32, val_main_c_4, val_main_v34, val_main_c_5] <;> rfl)

theorem mid_wl : after hostOps1 W (Proc.devRef .tc main_v42) = val_main_v51 (F := Ideal) (W (Proc.devRef .tc main_arg5)) := by
  simp only [hostOps1]; after_results_simp <;> (simp only [val_main_v51] <;> rfl)

theorem mid_wr : after hostOps1 W (Proc.devRef .tc main_v43) = val_main_v56 (F := Ideal) (W (Proc.devRef .tc main_arg7)) := by
  simp only [hostOps1]; after_results_simp <;> (simp only [val_main_v56] <;> rfl)

theorem mid_bias : after hostOps1 W (Proc.devRef .tc main_v44) = shapeCast S1x128 (W (Proc.devRef .tc main_arg6)) shapeCasts_S128_S1x128 := by
  simp only [hostOps1]; after_results_simp <;> rfl

theorem mid_hidden : after hostOps1 W (Proc.devRef .tc main_v28) = W (Proc.devRef .tc main_v28) := by
  simp only [hostOps1]; after_results_simp <;> rfl

end Cert.KernelIdeal.HostRead

end
-- ==== Proof.KernelValue.lean ====
/-
  The idealized kernel's result array is `output` of its argument arrays.

  The contents at each boundary of the program, read back one boundary at a time.  At the first region's entry its five
  operands hold the first mean, the node features, the two transposed weight matrices and the bias as a row; the region
  leaves the hidden layer of those in its result array and touches nothing else.  At the second region's entry its
  operands hold the second mean — the same aggregation applied to the first region's result, times the same reciprocal —,
  the hidden layer, and the second layer's weights and bias; the region leaves the output layer of those in the
  program's result array.  The product with the reciprocal of the clamped degree is the mean.
-/
import proofs.«176847_j47330539602644_1_alg».proof.Proof.KernelRun
import proofs.«176847_j47330539602644_1_alg».proof.Proof.Hidden
import proofs.«176847_j47330539602644_1_alg».proof.Proof.Output
import proofs.«176847_j47330539602644_1_alg».proof.Proof.KernelHost

noncomputable section

namespace Cert.KernelIdeal.Whole

open Cert.KernelIdeal Cert.KernelIdeal.Gen
open Idealize.ShloMosaic Idealize.ShloMosaic.TcCoe Idealize.SL.Sem Idealize.ShloMosaic.StableHlo
open Cert.ReferenceIdeal.Read Cert.SageSpec Cert.Dense Cert.SageDense Cert.KernelIdeal.HostRead

variable (m : (ℓ : Loc nD τ sig) → Buf (Elt Ideal) ℓ) (ρ : Dev nD → PrngReg)

/-- The hidden layer of the launch arrays. -/
abbrev hiddenOf (c : Dev nD) : Mat 50000 256 :=
  hidden (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- After the first region its result array holds the hidden layer. -/
theorem hidden_value (c : Dev nD) : W2 m ρ c (Proc.devRef .tc main_v28) = hiddenOf m c := by
  refine (W2_arr m ρ c 5).trans ((Cert.KernelIdeal.Hidden.final (V1 m ρ) c).trans ?_)
  have e24 : (V1 m ρ c main_v24 : S50000x128.Idx → EReal)
      = meanRows (val_main_v13 (F := Ideal) (m ((c.tc : Thread nD τ).loc main_arg0)) (m ((c.tc : Thread nD τ).loc main_arg1))) ones
          (deg (m ((c.tc : Thread nD τ).loc main_arg1))) :=
    (pre_mean (W0 m ρ c)).trans (mulMean _ _ _ _ _)
  have e0 : (V1 m ρ c main_arg0 : S50000x128.Idx → EReal) = m ((c.tc : Thread nD τ).loc main_arg0) := pre_feat (W0 m ρ c)
  have e25 : (V1 m ρ c main_v25 : S128x256.Idx → EReal) = val_main_v23 (F := Ideal) (m ((c.tc : Thread nD τ).loc main_arg2)) :=
    pre_wl (W0 m ρ c)
  have e26 : (V1 m ρ c main_v26 : S128x256.Idx → EReal) = val_main_v28 (F := Ideal) (m ((c.tc : Thread nD τ).loc main_arg4)) :=
    pre_wr (W0 m ρ c)
  have e27 : (V1 m ρ c main_v27 : S1x256.Idx → EReal) = row (m ((c.tc : Thread nD τ).loc main_arg3)) :=
    (pre_bias (W0 m ρ c)).trans (shapeCast_row _ _)
  show hid (V1 m ρ c main_v24 : S50000x128.Idx → EReal) (V1 m ρ c main_arg0 : S50000x128.Idx → EReal)
      (V1 m ρ c main_v25 : S128x256.Idx → EReal) (V1 m ρ c main_v26 : S128x256.Idx → EReal) (V1 m ρ c main_v27 : S1x256.Idx → EReal) = _
  rw [e24, e0, e25, e26, e27]
  rfl

/-- The first region leaves the index columns and the reciprocal as the host computed them. -/
theorem src_kept (c : Dev nD) : W2 m ρ c (Proc.devRef .tc main_v1) = val_main_v1 (F := Ideal) (m ((c.tc : Thread nD τ).loc main_arg1)) :=
  (W2_of_ne m ρ c main_v1 (by decide)).trans (pre_src (W0 m ρ c))

theorem dst_kept (c : Dev nD) : W2 m ρ c (Proc.devRef .tc main_v3) = val_main_v3 (F := Ideal) (m ((c.tc : Thread nD τ).loc main_arg1)) :=
  (W2_of_ne m ρ c main_v3 (by decide)).trans (pre_dst (W0 m ρ c))

theorem recip_kept (c : Dev nD) : W2 m ρ c (Proc.devRef .tc main_v11)
    = Host.divf (F := Ideal) ones (maximumf (F := Ideal) (deg (m ((c.tc : Thread nD τ).loc main_arg1))) ones) :=
  (W2_of_ne m ρ c main_v11 (by decide)).trans (pre_recip (W0 m ρ c))

theorem arg5_kept (c : Dev nD) : W2 m ρ c (Proc.devRef .tc main_arg5) = m ((c.tc : Thread nD τ).loc main_arg5) :=
  (W2_of_ne m ρ c main_arg5 (by decide)).trans (pre_arg5 (W0 m ρ c))

theorem arg6_kept (c : Dev nD) : W2 m ρ c (Proc.devRef .tc main_arg6) = m ((c.tc : Thread nD τ).loc main_arg6) :=
  (W2_of_ne m ρ c main_arg6 (by decide)).trans (pre_arg6 (W0 m ρ c))

theorem arg7_kept (c : Dev nD) : W2 m ρ c (Proc.devRef .tc main_arg7) = m ((c.tc : Thread nD τ).loc main_arg7) :=
  (W2_of_ne m ρ c main_arg7 (by decide)).trans (pre_arg7 (W0 m ρ c))

/-- After the second region the program's result array holds the network's output. -/
theorem value (c : Dev nD) : W4 m ρ c (Proc.devRef .tc main_v45)
    = output (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine (W4_arr m ρ c 5).trans ((Cert.KernelIdeal.Output.final (V3 m ρ) c).trans ?_)
  have e41 : (V3 m ρ c main_v41 : S50000x256.Idx → EReal)
      = meanRows (agg256 (hiddenOf m c) (val_main_v1 (F := Ideal) (m ((c.tc : Thread nD τ).loc main_arg1)))
          (val_main_v3 (F := Ideal) (m ((c.tc : Thread nD τ).loc main_arg1)))) ones (deg (m ((c.tc : Thread nD τ).loc main_arg1))) := by
    refine (mid_mean (W2 m ρ c)).trans ?_
    rw [hidden_value m ρ c, src_kept m ρ c, dst_kept m ρ c, recip_kept m ρ c]
    exact mulMean _ _ _ _ _
  have e28 : (V3 m ρ c main_v28 : S50000x256.Idx → EReal) = hiddenOf m c :=
    (mid_hidden (W2 m ρ c)).trans (hidden_value m ρ c)
  have e42 : (V3 m ρ c main_v42 : S256x128.Idx → EReal) = val_main_v51 (F := Ideal) (m ((c.tc : Thread nD τ).loc main_arg5)) := by
    refine (mid_wl (W2 m ρ c)).trans ?_
    rw [arg5_kept m ρ c]
  have e43 : (V3 m ρ c main_v43 : S256x128.Idx → EReal) = val_main_v56 (F := Ideal) (m ((c.tc : Thread nD τ).loc main_arg7)) := by
    refine (mid_wr (W2 m ρ c)).trans ?_
    rw [arg7_kept m ρ c]
  have e44 : (V3 m ρ c main_v44 : S1x128.Idx → EReal) = row (m ((c.tc : Thread nD τ).loc main_arg6)) := by
    refine (mid_bias (W2 m ρ c)).trans ?_
    rw [arg6_kept m ρ c]
    exact shapeCast_row _ _
  show lin (V3 m ρ c main_v41 : S50000x256.Idx → EReal) (V3 m ρ c main_v28 : S50000x256.Idx → EReal)
      (V3 m ρ c main_v42 : S256x128.Idx → EReal) (V3 m ρ c main_v43 : S256x128.Idx → EReal) (V3 m ρ c main_v44 : S1x128.Idx → EReal) = _
  rw [e41, e28, e42, e43, e44]
  rfl

end Cert.KernelIdeal.Whole

end
-- ==== Proof.RefValue.lean ====
/-
  The reference computes `output`.

  Stage by stage: the reference's mean is the summed rows divided by the clamped degree broadcast to a column and along the
  rows, which is `meanRows` because the clamp is at one; its dense steps add the bias before the second product, which is
  the same sum; its rectifier is a maximum with a broadcast zero.  The degree vector and the vector of ones are computed
  twice by the same operations.
-/
import proofs.«176847_j47330539602644_1_alg».proof.Proof.Spec

noncomputable section

namespace Cert.SageSpec

open Cert.ReferenceIdeal Cert.ReferenceIdeal.Gen Cert.ReferenceIdeal.Read
open Idealize.ShloMosaic Cert.Dense Cert.SageDense

/-- The first mean. -/
theorem ref_mean1 (x0 : (⟨S50000x128, .f32⟩ : BufTy).Contents (Elt Ideal)) (x1 : (⟨S2x800000, .i32⟩ : BufTy).Contents (Elt Ideal)) :
    val_main_v22 (F := Ideal) x0 x1 = meanRows (val_main_v13 (F := Ideal) x0 x1) ones (deg x1) := by
  unfold val_main_v22 val_main_v21 val_main_v20 val_main_v19
  exact divMean _ ones (deg x1) _ _ ones_apply

/-- The hidden layer. -/
theorem ref_hidden (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) :
    val_main_v31 (F := Ideal) x0 x1 x2 x3 x4 = hidden x0 x1 x2 x3 x4 := by
  unfold val_main_v31 val_main_v30 val_main_v27 val_main_v29 val_main_v24 val_main_v26 val_main_v25 val_main_call0_v0 val_main_call0_cst hidden
  rw [ref_mean1]
  exact hostHid _ rfl rfl rfl rfl rfl rfl _ x0 _ _ x3 _ _ _

/-- The second degree count and vector of ones are the first ones. -/
theorem ref_deg2 (x1 : (⟨S2x800000, .i32⟩ : BufTy).Contents (Elt Ideal)) : val_main_v45 (F := Ideal) x1 = deg x1 := by
  unfold val_main_v45 val_main_v44 val_main_v43 val_main_v42 val_main_cst_7 val_main_cst_8 deg val_main_v17 val_main_v16 val_main_v15 val_main_v14 val_main_cst_1 val_main_cst_2
  rfl

theorem ref_ones2 : val_main_v46 (F := Ideal) = ones := by
  unfold val_main_v46 val_main_cst_9 ones val_main_v18 val_main_cst_3
  rfl

/-- The second mean. -/
theorem ref_mean2 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) :
    val_main_v50 (F := Ideal) x0 x1 x2 x3 x4 = meanRows (val_main_v41 (F := Ideal) x0 x1 x2 x3 x4) ones (deg x1) := by
  unfold val_main_v50 val_main_v49 val_main_v48 val_main_v47
  rw [ref_deg2, ref_ones2]
  exact divMean _ ones (deg x1) _ _ ones_apply

/-- The reference's result. -/
theorem ref_output (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal))
    (x5 : (⟨S128x256, .f32⟩ : BufTy).Contents (Elt Ideal)) (x6 : (⟨S128, .f32⟩ : BufTy).Contents (Elt Ideal))
    (x7 : (⟨S128x256, .f32⟩ : BufTy).Contents (Elt Ideal)) :
    val_main_v58 (F := Ideal) x0 x1 x2 x3 x4 x5 x6 x7 = output x0 x1 x2 x3 x4 x5 x6 x7 := by
  unfold val_main_v58 val_main_v55 val_main_v57 val_main_v52 val_main_v54 val_main_v53 output
  rw [ref_mean2, ref_agg256, ref_hidden]
  exact hostLin _ rfl rfl rfl rfl rfl rfl _ _ _ _ x6 _ _

end Cert.SageSpec

end
-- ==== Proof.lean ====
/-
  A two-layer mean-aggregating graph network: the kernel program against its reference, on the extended reals.

  Each layer takes, for every node, the mean of its in-neighbours' feature rows — the rows gathered by the edges' sources,
  added up by the edges' targets, and divided by the in-degree clamped below at one — and forms
  `mean · wlᵀ + features · wrᵀ + bias`, rectified in the first layer.  The kernel program computes the aggregation on the
  host and the dense step in a pipelined region over ten blocks of 5000 rows, twice; the reference computes everything on
  the host.  They differ in three places, none of which changes the value at any extended real: the kernel multiplies by
  the reciprocal of the clamped degree where the reference divides by it (a degree clamped at one is never zero); the
  kernel adds the bias after both products where the reference adds it between them (addition is commutative and
  associative); the kernel narrows the matrix unit's operands to a shorter float format (the identity on the extended
  reals).  So both result arrays hold one function, `output`, of the eight argument arrays, and finiteness of the inputs
  is never used.

  The three frames are the programs' runs with the result forgotten; the kernel's idealization rewrote no operation.
-/
import proofs.«176847_j47330539602644_1_alg».proof.Defs
import proofs.«176847_j47330539602644_1_alg».proof.Proof.Gen.Kernel
import proofs.«176847_j47330539602644_1_alg».proof.Proof.Gen.Kernel.Frame
import proofs.«176847_j47330539602644_1_alg».proof.Proof.Gen.KernelIdeal
import proofs.«176847_j47330539602644_1_alg».proof.Proof.Gen.KernelIdeal.Frame
import proofs.«176847_j47330539602644_1_alg».proof.Proof.Gen.ReferenceIdeal
import proofs.«176847_j47330539602644_1_alg».proof.Proof.Gen.ReferenceIdeal.Run
import proofs.«176847_j47330539602644_1_alg».proof.Proof.Gen.ReferenceIdeal.Read
import proofs.«176847_j47330539602644_1_alg».proof.Proof.Gen.Pre_finite_inputs
import proofs.«176847_j47330539602644_1_alg».proof.Proof.KernelRun
import proofs.«176847_j47330539602644_1_alg».proof.Proof.KernelValue
import proofs.«176847_j47330539602644_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result arrays at `output` of the argument arrays. -/
theorem algebraic : Cert.algebraic_KernelIdeal_ReferenceIdeal := by
  intro m ρ m' ρ' _ hagree
  refine ⟨fun c => Cert.SageSpec.output (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.value m ρ c), (h c).2⟩)
      (Cert.KernelIdeal.RunValue.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, Cert.SageSpec.ref_output, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
